-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x16 .f32) (main_arg7 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S200x10000 : Shape := ⟨2, ![200, 10000]⟩
abbrev S200x128 : Shape := ⟨2, ![200, 128]⟩
abbrev S10000x16 : Shape := ⟨2, ![10000, 16]⟩
abbrev S400x10000 : Shape := ⟨2, ![400, 10000]⟩
abbrev S400x16 : Shape := ⟨2, ![400, 16]⟩
abbrev S400x128 : Shape := ⟨2, ![400, 128]⟩
abbrev S1x16 : Shape := ⟨2, ![1, 16]⟩
abbrev S16x10000 : Shape := ⟨2, ![16, 10000]⟩

abbrev nBuf : Space → Nat
  | .hbm => 18
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S10000x128, .bf16⟩
  | .hbm, ⟨9, _⟩ => ⟨S1x128, .f32⟩
  | .hbm, ⟨10, _⟩ => ⟨S10000x128, .bf16⟩
  | .hbm, ⟨11, _⟩ => ⟨S10000x10000, .bf16⟩
  | .hbm, ⟨12, _⟩ => ⟨S1x128, .f32⟩
  | .hbm, ⟨13, _⟩ => ⟨S10000x16, .bf16⟩
  | .hbm, ⟨14, _⟩ => ⟨S1x16, .f32⟩
  | .hbm, ⟨15, _⟩ => ⟨S10000x16, .f32⟩
  | .hbm, ⟨16, _⟩ => ⟨S16x10000, .f32⟩
  | .hbm, ⟨17, _⟩ => ⟨S10000x10000, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S200x10000, .f32⟩
  | .local _ .vmem, ⟨4, _⟩ => ⟨S200x10000, .f32⟩
  | .local _ .vmem, ⟨5, _⟩ => ⟨S10000x128, .bf16⟩
  | .local _ .vmem, ⟨6, _⟩ => ⟨S1x128, .f32⟩
  | .local _ .vmem, ⟨7, _⟩ => ⟨S128x128, .f32⟩
  | .local _ .vmem, ⟨8, _⟩ => ⟨S200x128, .bf16⟩
  | .local _ .vmem, ⟨9, _⟩ => ⟨S200x128, .bf16⟩
  | .local _ .vmem, ⟨10, _⟩ => ⟨S200x10000, .bf16⟩
  | .local _ .vmem, ⟨11, _⟩ => ⟨S200x10000, .bf16⟩
  | .local _ .vmem, ⟨12, _⟩ => ⟨S400x10000, .bf16⟩
  | .local _ .vmem, ⟨13, _⟩ => ⟨S400x10000, .bf16⟩
  | .local _ .vmem, ⟨14, _⟩ => ⟨S10000x128, .bf16⟩
  | .local _ .vmem, ⟨15, _⟩ => ⟨S1x128, .f32⟩
  | .local _ .vmem, ⟨16, _⟩ => ⟨S128x16, .f32⟩
  | .local _ .vmem, ⟨17, _⟩ => ⟨S400x16, .bf16⟩
  | .local _ .vmem, ⟨18, _⟩ => ⟨S400x16, .bf16⟩
  | .local _ .vmem, ⟨19, _⟩ => ⟨S400x10000, .bf16⟩
  | .local _ .vmem, ⟨20, _⟩ => ⟨S400x10000, .bf16⟩
  | .local _ .vmem, ⟨21, _⟩ => ⟨S10000x16, .bf16⟩
  | .local _ .vmem, ⟨22, _⟩ => ⟨S1x16, .f32⟩
  | .local _ .vmem, ⟨23, _⟩ => ⟨S400x16, .f32⟩
  | .local _ .vmem, ⟨24, _⟩ => ⟨S400x16, .f32⟩
  | .local _ .vmem, ⟨25, _⟩ => ⟨S400x16, .f32⟩
  | .local _ .vmem, ⟨26, _⟩ => ⟨S400x16, .f32⟩
  | .local _ .vmem, ⟨27, _⟩ => ⟨S16x10000, .f32⟩
  | .local _ .vmem, ⟨28, _⟩ => ⟨S400x10000, .f32⟩
  | .local _ .vmem, ⟨29, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x10000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  packedbf16_S200x128_S200x128_0_0 : (Rect.unit (s := S200x128) ![0, 0] S200x128.size inb_S200x128_S200x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x128_S400x128 : S1x128.Broadcasts S400x128
  inb_S128x16_S128x16_0_0 : ∀ a, (![0, 0] : Fin 2 → Nat) a + S128x16.size a ≤ S128x16.size a
  h_S128x16 : 0 < S128x16.numel
  inb_S400x16_S400x16_0_0 : ∀ a, (![0, 0] : Fin 2 → Nat) a + S400x16.size a ≤ S400x16.size a
  h_S400x16 : 0 < S400x16.numel
  packedbf16_S400x16_S400x16_0_0 : (Rect.unit (s := S400x16) ![0, 0] S400x16.size inb_S400x16_S400x16_0_0).PackedRows (EltTy.packing .bf16)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  transposes_S10000x16_S16x10000_1_0 : S10000x16.Transposes [1, 0] S16x10000
  shapeCasts_S400x16_S400x16 : S400x16.ShapeCasts S400x16
  inb_S16x10000_S16x10000_0_0 : ∀ a, (![0, 0] : Fin 2 → Nat) a + S16x10000.size a ≤ S16x10000.size a
  h_S16x10000 : 0 < S16x10000.numel
  shapeCasts_S16x10000_S16x10000 : S16x10000.ShapeCasts S16x10000
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S400x10000_S10000x128_S400x128_1_0_0_1_n_n_wf : DotDims.WF S400x10000 S10000x128 S400x128 [1] [0] [0] [1] [] []
  dot_S400x128_S128x16_S400x16_1_0_0_1_n_n_wf : DotDims.WF S400x128 S128x16 S400x16 [1] [0] [0] [1] [] []
  dot_S400x10000_S10000x16_S400x16_1_0_0_1_n_n_wf : DotDims.WF S400x10000 S10000x16 S400x16 [1] [0] [0] [1] [] []
  dot_S400x16_S16x10000_S400x10000_1_0_0_1_n_n_wf : DotDims.WF S400x16 S16x10000 S400x10000 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .bf16 = 32 ∨ (Rect.block (s := S10000x128) S200x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x16.size a ≤ S128x16.size a
  hwx2_3 : ∀ i : grid2.Coords, EltTy.bits .f32 = 32 ∨ (Rect.block (s := S128x16) S128x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .bf16 = 32 ∨ (Rect.block (s := S10000x16) S400x16.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .bf16 = 32 ∨ (Rect.block (s := S10000x16) S10000x16.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S10000x16.size a
  hwx3_3 : ∀ i : grid3.Coords, EltTy.bits .f32 = 32 ∨ (Rect.block (s := S10000x16) S400x16.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x16.size a ≤ S10000x16.size a
  hwx4_0 : ∀ i : grid4.Coords, EltTy.bits .f32 = 32 ∨ (Rect.block (s := S10000x16) S400x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x10000.size a ≤ S16x10000.size a
  hwx4_1 : ∀ i : grid4.Coords, EltTy.bits .f32 = 32 ∨ (Rect.block (s := S16x10000) S16x10000.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10000.size a ≤ S10000x10000.size a
  hwx4_2 : ∀ i : grid4.Coords, EltTy.bits .f32 = 32 ∨ (Rect.block (s := S10000x10000) S400x10000.size (cc4_transform_2 i) (hinb4_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x16_S400x16_1_0_0_1_n_n : DotDims S400x128 S128x16 S400x16 where
  lhsContracting := [1]
  rhsContracting := [0]
  lhsNonContracting := [0]
  rhsNonContracting := [1]
  lhsBatch := []
  rhsBatch := []
  wf := dot_S400x128_S128x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x10000_S400x10000_1_0_0_1_n_n : DotDims S400x16 S16x10000 S400x10000 where
  lhsContracting := [1]
  rhsContracting := [0]
  lhsNonContracting := [0]
  rhsNonContracting := [1]
  lhsBatch := []
  rhsBatch := []
  wf := dot_S400x16_S16x10000_S400x10000_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S200x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S400x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v6) S400x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S16x10000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S400x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x128 : Shape := ⟨2, ![1, 128]⟩
abbrev S_ : Shape := ⟨0, ![]⟩
abbrev S10000x16 : Shape := ⟨2, ![10000, 16]⟩
abbrev S1x16 : Shape := ⟨2, ![1, 16]⟩
abbrev S16x10000 : Shape := ⟨2, ![16, 10000]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S16x10000, .f32⟩
  | .hbm, ⟨30, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  transposes_S10000x16_S16x10000_1_0 : S10000x16.Transposes [1, 0] S16x10000
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.KRun.lean ====
/-
  The kernel program's run, with the result array named.  @main is five pipelined regions with a host
  operation between consecutive ones; the contents of the unscoped buffers at each boundary are a fold from
  the launch memory, and at the end of the last region the result buffer holds that fold's value there.
-/
import proofs.«137731_g22393959481936_cont_8to1_100_3_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program's run with its result array named: every weakly fair execution of @main ends with the result buffer at the
    last boundary's contents and the argument arrays as launched. -/
theorem run_named : θ_run defs (onTc (τ := τ) (main (F := F))) ⟨m, fun _ => 0, ρ⟩ (fun r => ∀ c : Dev nD,
      r.2.mem ((c.tc : Thread nD τ).loc main_v8) = W9 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v8 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.KRun

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Spec.lean ====
/-
  The function both programs compute, on the extended reals.  A graph-convolution layer multiplies the
  node features by a weight matrix, multiplies the adjacency matrix by the result, and adds a bias to every
  row; between layers every entry is replaced by its maximum with zero.  After three layers the output is
  the Gram matrix of the node embeddings, z · zᵀ.  All products are plain sums over the contracted axis.
-/
import proofs.«137731_g22393959481936_cont_8to1_100_3_alg».proof.Proof.LibMatmul
import Idealize.ShloMosaic.Lib.ValueLayout

noncomputable section

open scoped BigOperators

namespace Cert.Gcn

open Idealize.ShloMosaic Idealize.ShloMosaic.ValueIdx Cert.LibMatmul

/-- A length-B array added to every row of an A × B array. -/
def addRow {A B : Nat} (x : (⟨2, ![A, B]⟩ : Shape).Idx → EReal) (b : (⟨1, ![B]⟩ : Shape).Idx → EReal) :
    (⟨2, ![A, B]⟩ : Shape).Idx → EReal :=
  fun i => x i + b (ix1 (i 1))

/-- Every entry replaced by its maximum with zero (zero kept as the word both programs write). -/
def relu {S : Shape} (x : S.Idx → EReal) : S.Idx → EReal :=
  fun i => max (x i) (Ideal.ofBits .f32 0x00000000#32)

/-- The transposed matrix. -/
def tr {A B : Nat} (z : (⟨2, ![A, B]⟩ : Shape).Idx → EReal) : (⟨2, ![B, A]⟩ : Shape).Idx → EReal :=
  fun i => z (ix2 (i 1) (i 0))

/-- The program's transpose of a matrix is that function of the index. -/
theorem transpose_eq_tr {a b : ℕ} (x : (⟨2, ![a, b]⟩ : Shape).Idx → EReal)
    (h : (⟨2, ![a, b]⟩ : Shape).Transposes [1, 0] ⟨2, ![b, a]⟩) :
    transpose ⟨2, ![b, a]⟩ [1, 0] x h = tr x := by
  funext i
  exact (congrArg (transpose ⟨2, ![b, a]⟩ [1, 0] x h) (eq_ix2 i)).trans (transpose_ix2_apply x h (i 0) (i 1))

/-- The pre-activation of a layer: adj · h + b, the bias added to every row. -/
def affine {N G : Nat} (adj : (⟨2, ![N, N]⟩ : Shape).Idx → EReal) (h : (⟨2, ![N, G]⟩ : Shape).Idx → EReal)
    (b : (⟨1, ![G]⟩ : Shape).Idx → EReal) : (⟨2, ![N, G]⟩ : Shape).Idx → EReal :=
  addRow (MM adj h) b

/-- A layer followed by the next layer's weight product: relu (adj · h + b) · wn. -/
def layer {N G G' : Nat} (adj : (⟨2, ![N, N]⟩ : Shape).Idx → EReal) (h : (⟨2, ![N, G]⟩ : Shape).Idx → EReal)
    (b : (⟨1, ![G]⟩ : Shape).Idx → EReal) (wn : (⟨2, ![G, G']⟩ : Shape).Idx → EReal) :
    (⟨2, ![N, G']⟩ : Shape).Idx → EReal :=
  MM (relu (affine adj h b)) wn

/-- The node embeddings z after the three layers. -/
def embed {N D G C : Nat} (feat : (⟨2, ![N, D]⟩ : Shape).Idx → EReal) (adj : (⟨2, ![N, N]⟩ : Shape).Idx → EReal)
    (W1 : (⟨2, ![D, G]⟩ : Shape).Idx → EReal) (b1 : (⟨1, ![G]⟩ : Shape).Idx → EReal)
    (W2 : (⟨2, ![G, G]⟩ : Shape).Idx → EReal) (b2 : (⟨1, ![G]⟩ : Shape).Idx → EReal)
    (W3 : (⟨2, ![G, C]⟩ : Shape).Idx → EReal) (b3 : (⟨1, ![C]⟩ : Shape).Idx → EReal) :
    (⟨2, ![N, C]⟩ : Shape).Idx → EReal :=
  affine adj (layer adj (layer adj (MM feat W1) b1 W2) b2 W3) b3

/-- The whole result: z · zᵀ. -/
def gram {N C : Nat} (z : (⟨2, ![N, C]⟩ : Shape).Idx → EReal) : (⟨2, ![N, N]⟩ : Shape).Idx → EReal :=
  MM z (tr z)

/-! ## A block of rows of a layer's output depends on the same rows of the adjacency matrix only -/

section Rows
variable {A K G a : Nat}
  (X : (⟨2, ![A, K]⟩ : Shape).Idx → EReal) (x0 : (⟨2, ![a, K]⟩ : Shape).Idx → EReal)
  (e0 : (⟨2, ![a, K]⟩ : Shape).Idx → (⟨2, ![A, K]⟩ : Shape).Idx) (r0 : Nat)
  (hx0 : ∀ y, x0 y = X (e0 y))
  (h00 : ∀ y, (e0 y 0).val = r0 + (y 0).val) (h01 : ∀ y, (e0 y 1).val = (y 1).val)

include hx0 h00 h01 in
/-- Rows r0 … r0 + a of a product X · h, from those rows of X. -/
theorem MM_rows (h : (⟨2, ![K, G]⟩ : Shape).Idx → EReal)
    (e : (⟨2, ![a, G]⟩ : Shape).Idx → (⟨2, ![A, G]⟩ : Shape).Idx)
    (hO0 : ∀ j, (e j 0).val = r0 + (j 0).val) (hO1 : ∀ j, (e j 1).val = (j 1).val)
    (j : (⟨2, ![a, G]⟩ : Shape).Idx) : MM x0 h j = MM X h (e j) := by
  unfold MM
  refine Finset.sum_congr rfl fun k _ => ?_
  have e1 : e0 (ix2 (j 0) k) = ix2 (e j 0) k := by
    funext d; apply Fin.ext
    match d with
    | ⟨0, _⟩ => exact (h00 _).trans (hO0 j).symm
    | ⟨1, _⟩ => exact h01 _
  have e2 : (j 1) = (e j 1) := Fin.ext (hO1 j).symm
  rw [hx0, e1, e2]
  rfl

end Rows

section Blocks
variable {N G G' a : Nat}
  (ADJ : (⟨2, ![N, N]⟩ : Shape).Idx → EReal) (x0 : (⟨2, ![a, N]⟩ : Shape).Idx → EReal)
  (e0 : (⟨2, ![a, N]⟩ : Shape).Idx → (⟨2, ![N, N]⟩ : Shape).Idx) (r0 : Nat)
  (hx0 : ∀ y, x0 y = ADJ (e0 y))
  (h00 : ∀ y, (e0 y 0).val = r0 + (y 0).val) (h01 : ∀ y, (e0 y 1).val = (y 1).val)

include hx0 h00 h01 in
/-- The same rows of adj · h + b. -/
theorem affine_rows (h : (⟨2, ![N, G]⟩ : Shape).Idx → EReal) (b : (⟨1, ![G]⟩ : Shape).Idx → EReal)
    (e : (⟨2, ![a, G]⟩ : Shape).Idx → (⟨2, ![N, G]⟩ : Shape).Idx)
    (hO0 : ∀ j, (e j 0).val = r0 + (j 0).val) (hO1 : ∀ j, (e j 1).val = (j 1).val)
    (j : (⟨2, ![a, G]⟩ : Shape).Idx) : addRow (MM x0 h) b j = affine ADJ h b (e j) := by
  unfold affine addRow
  have e2 : (j 1) = (e j 1) := Fin.ext (hO1 j).symm
  rw [MM_rows ADJ x0 e0 r0 hx0 h00 h01 h e hO0 hO1 j, e2]

include hx0 h00 h01 in
/-- The same rows of relu (adj · h + b) · wn. -/
theorem layer_rows (h : (⟨2, ![N, G]⟩ : Shape).Idx → EReal) (b : (⟨1, ![G]⟩ : Shape).Idx → EReal)
    (wn : (⟨2, ![G, G']⟩ : Shape).Idx → EReal)
    (e : (⟨2, ![a, G']⟩ : Shape).Idx → (⟨2, ![N, G']⟩ : Shape).Idx)
    (hO0 : ∀ j, (e j 0).val = r0 + (j 0).val) (hO1 : ∀ j, (e j 1).val = (j 1).val)
    (j : (⟨2, ![a, G']⟩ : Shape).Idx) :
    MM (relu (addRow (MM x0 h) b)) wn j = layer ADJ h b wn (e j) := by
  unfold layer
  have hlt : r0 + (j 0).val < N := by rw [← hO0 j]; exact (e j 0).isLt
  -- the rows of the intermediate array, moved by the same offset
  let em : (⟨2, ![a, G]⟩ : Shape).Idx → (⟨2, ![N, G]⟩ : Shape).Idx :=
    fun y => ix2 ⟨(e (ix2 (y 0) (j 1)) 0).val, (e (ix2 (y 0) (j 1)) 0).isLt⟩ (y 1)
  have hm0 : ∀ y, (em y 0).val = r0 + (y 0).val := fun y => hO0 _
  have hm1 : ∀ y, (em y 1).val = (y 1).val := fun y => rfl
  show ∑ k, relu (addRow (MM x0 h) b) (ix2 (j 0) k) * wn (ix2 k (j 1))
      = ∑ k, relu (affine ADJ h b) (ix2 (e j 0) k) * wn (ix2 k (e j 1))
  refine Finset.sum_congr rfl fun k _ => ?_
  have e2 : (j 1) = (e j 1) := Fin.ext (hO1 j).symm
  have e3 : em (ix2 (j 0) k) = ix2 (e j 0) k := by
    funext d; apply Fin.ext
    match d with
    | ⟨0, _⟩ => exact (hm0 _).trans (hO0 j).symm
    | ⟨1, _⟩ => rfl
  have := affine_rows ADJ x0 e0 r0 hx0 h00 h01 h b em hm0 hm1 (ix2 (j 0) k)
  unfold relu
  rw [this, e3, e2]
  rfl

end Blocks

end Cert.Gcn

end
-- ==== Proof.KCommon.lean ====
/-
  Small facts shared by the five regions of the kernel program, at the ideal values: a change of float
  format is the identity, the matrix unit's product into the zero accumulator is the plain matrix product,
  and a one-row array repeated down the rows reads its entry of the column.
-/
import proofs.«137731_g22393959481936_cont_8to1_100_3_alg».proof.Proof.Spec
import Idealize.ShloMosaic.Lib.ValueLayout
import Idealize.ShloMosaic.Lib.Pipeline.Value

noncomputable section

namespace Cert.KernelIdeal.KValue

open Idealize.ShloMosaic Idealize.ShloMosaic.ValueIdx Cert.LibMatmul Cert.Gcn

/-- The offsets of a rectangle that starts at the origin. -/
theorem hz : (![0, 0] : Fin 2 → Nat) = fun _ => 0 := funext fun a => by fin_cases a <;> rfl

/-- A one-row array repeated down the rows holds, at (p, q), the row's entry q. -/
theorem row_bcast_eq {a b : ℕ} (v : (⟨2, ![1, b]⟩ : Shape).Idx → EReal) (h : (⟨2, ![1, b]⟩ : Shape).Broadcasts ⟨2, ![a, b]⟩) :
    broadcastTo ⟨2, ![a, b]⟩ v h = fun i => v (ix2 (0 : Fin 1) (i 1)) := by
  funext i
  exact (congrArg (broadcastTo ⟨2, ![a, b]⟩ v h) (eq_ix2 i)).trans (broadcastTo_1b_ab_apply v h (i 0) (i 1))

/-- The matrix unit's product into the zero accumulator is the plain matrix product. -/
theorem mm_eq {A K B : ℕ} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (x : FVec Ideal ⟨2, ![A, K]⟩ φ₁) (w : FVec Ideal ⟨2, ![K, B]⟩ φ₂) :
    matmul d none x w (constant ⟨2, ![A, B]⟩ .f32 0x00000000#32) = MM x w :=
  matmul_zero_eq d hlb hln hlc hrb hrn hrc none x w

/-- Rounding to the shorter format does nothing to an extended real. -/
theorem truncf_bf16_eq {s : Shape} (x : FVec Ideal s .f32) (h : FTy.bf16.bits < FTy.f32.bits) :
    (truncf .bf16 x h : s.Idx → EReal) = x := rfl

end Cert.KernelIdeal.KValue

end
-- ==== Proof.KRegion0.lean ====
/-
  The first region: one point, every window its whole array.  The body multiplies the node features by the
  first weight matrix, so the output array ends holding feat · W.
-/
import proofs.«137731_g22393959481936_cont_8to1_100_3_alg».proof.Proof.Gen.KernelIdeal.Frame
import proofs.«137731_g22393959481936_cont_8to1_100_3_alg».proof.Proof.KCommon

set_option maxRecDepth 16384

noncomputable section

namespace Cert.KernelIdeal.KValue

open Cert.KernelIdeal Cert.KernelIdeal.Gen Idealize.ShloMosaic Idealize.ShloMosaic.TcCoe Idealize.ShloMosaic.ValueIdx Cert.LibMatmul Cert.Gcn
open Idealize.SL.Sem
open Idealize.ShloMosaic.Pipeline (Dat Cfg Window)

variable (V : (c : Dev nD) → (b : Ref sig .tc) → Buf (Elt Ideal) ((c : Thread nD τ).loc b))

/-- The body's arithmetic, on whole blocks. -/
theorem pay0_1 (v0 : Vec Ideal S10000x128 .f32) (v1 : Vec Ideal S128x128 .f32) : k0_pay1 v0 v1 = MM v0 v1 := by
  unfold k0_pay1
  simp only [truncf_bf16_eq]
  exact mm_eq dot_S10000x128_S128x128_S10000x128_1_0_0_1_n_n rfl rfl rfl rfl rfl rfl v0 v1

/-- Every window sits at block 0 at the one point. -/
theorem idx_facts0 : ∀ t : Fin cfg0.N, win0_0.index t (0 : Fin 2) = 0
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block is its whole array at every point. -/
theorem blk0_0 (c : Dev nD) (t : Fin cfg0.N) : iblk0 V c 0 t = V c main_arg0 := by
  obtain ⟨e00, e01, e10, e11, e20, e21⟩ := idx_facts0 t
  funext y
  show V c main_arg0 (((cfg0.win 0).blk t).view.emb y) = V c main_arg0 y
  refine congrArg (V c main_arg0) ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Window 1's block is its whole array at every point. -/
theorem blk0_1 (c : Dev nD) (t : Fin cfg0.N) : iblk0 V c 1 t = V c main_arg2 := by
  obtain ⟨e00, e01, e10, e11, e20, e21⟩ := idx_facts0 t
  funext y
  show V c main_arg2 (((cfg0.win 1).blk t).view.emb y) = V c main_arg2 y
  refine congrArg (V c main_arg2) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the point writes back is the whole of feat · W. -/
theorem flushed0_2 (c : Dev nD) (t : Fin cfg0.N) :
    (dat0 V c).flushed 2 t = ((cfg0.win 2).blk t).view.read (Elt Ideal) (MM (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay0_1, blk0_0, blk0_1]
  obtain ⟨e00, e01, e10, e11, e20, e21⟩ := idx_facts0 t
  have ht : t.val = 0 := by have := t.isLt; have hN : cfg0.N = 1 := N_0; omega
  funext j
  exact MM_rows (A := 10000) (K := 128) (G := 128) (a := 10000) (V c main_arg0) (V c main_arg0)
    (fun y => y) 0 (fun y => rfl) (fun y => by omega) (fun y => rfl)
    (V c main_arg2)
    (fun y => ((cfg0.win 2).blk t).view.emb y)
    (fun y => by show win0_2.index t (0 : Fin 2) * 10000 + 1 * (y 0).val = _; rw [e20, ht]; omega)
    (fun y => by show win0_2.index t (1 : Fin 2) * 128 + 1 * (y 1).val = _; rw [e21]; omega) j

/-- An index of the array lies in a point's block of window 2 iff each coordinate is in the block's range. -/
theorem mem_blk0_2 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Every row of the array is in the block of the point numbered by the row's block of 10000 rows. -/
theorem covered0_2 (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 1 := N_0
  have ht : (i 0).val / 10000 < cfg0.N := by rw [hN]; omega
  obtain ⟨e00, e01, e10, e11, e20, e21⟩ := idx_facts0 ⟨(i 0).val / 10000, ht⟩
  refine ⟨⟨(i 0).val / 10000, ht⟩, flush0_2 _, ?_⟩
  rw [mem_blk0_2]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e20]
    show (i 0).val / 10000 * 10000 ≤ (i 0).val ∧ (i 0).val < (i 0).val / 10000 * 10000 + 10000
    omega
  | ⟨1, _⟩ =>
    show win0_2.index ⟨(i 0).val / 10000, ht⟩ (1 : Fin 2) * 128 ≤ (i 1).val ∧ (i 1).val < win0_2.index ⟨(i 0).val / 10000, ht⟩ (1 : Fin 2) * 128 + 128
    rw [e21]
    omega

/-- After the region the output array holds feat · W of the arrays as the region finds them. -/
theorem arr0_2 (c : Dev nD) : (dat0 V c).arrAt 2 cfg0.N = MM (V c main_arg0) (V c main_arg2) :=
  (dat0 V c).arrAt_eq_of_cover 2 _ (fun t _ => flushed0_2 V c t) covered0_2

end Cert.KernelIdeal.KValue

end
-- ==== Proof.KRegion1.lean ====
/-
  The second region: one pass over the adjacency matrix in blocks of 200 rows.  At a point the body multiplies
  the block by the resident features, adds the bias to every row, takes the maximum with zero, multiplies by
  the next layer's weights, and also writes the block of the adjacency matrix back unchanged.  A block of
  rows of relu (adj · h + b) · w depends on the same rows of adj only, so the written blocks are the blocks
  of the whole-array function and, the blocks covering all rows, the arrays end holding it.
-/
import proofs.«137731_g22393959481936_cont_8to1_100_3_alg».proof.Proof.Gen.KernelIdeal.Frame
import proofs.«137731_g22393959481936_cont_8to1_100_3_alg».proof.Proof.KCommon

set_option maxRecDepth 16384

noncomputable section

namespace Cert.KernelIdeal.KValue

open Cert.KernelIdeal Cert.KernelIdeal.Gen Idealize.ShloMosaic Idealize.ShloMosaic.TcCoe Idealize.ShloMosaic.ValueIdx Cert.LibMatmul Cert.Gcn
open Idealize.SL.Sem
open Idealize.ShloMosaic.Pipeline (Dat Cfg Window)

variable (V : (c : Dev nD) → (b : Ref sig .tc) → Buf (Elt Ideal) ((c : Thread nD τ).loc b))

/-- The body's arithmetic, on whole blocks. -/
theorem pay1_2 (v0 : Vec Ideal S200x10000 .f32) (v3 : Vec Ideal S10000x128 .bf16) (v6 : Vec Ideal S1x128 .f32) (v12 : Vec Ideal S128x128 .f32) :
    k1_pay2 v0 v3 v6 v12 = MM (relu (addRow (MM v0 v3) (fun i => v6 (ix2 (0 : Fin 1) (i 0))))) v12 := by
  unfold k1_pay2 k1_pay1
  simp only [shapeCast_self, truncf_bf16_eq]
  rw [mm_eq dot_S200x128_S128x128_S200x128_1_0_0_1_n_n rfl rfl rfl rfl rfl rfl, mm_eq dot_S200x10000_S10000x128_S200x128_1_0_0_1_n_n rfl rfl rfl rfl rfl rfl, row_bcast_eq]
  rfl

/-- The index maps over the grid: the adjacency block and both output blocks move down with the point, every
    other window stays at block 0. -/
theorem idx_facts1 : ∀ t : Fin cfg1.N, win1_0.index t (0 : Fin 2) = t.val
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Window 1's block is its whole array at every point. -/
theorem blk1_1 (c : Dev nD) (t : Fin cfg1.N) : iblk1 V c 1 t = V c main_v0 := by
  obtain ⟨e00, e01, e10, e11, e20, e21, e30, e31, e40, e41, e50, e51⟩ := idx_facts1 t
  funext y
  show V c main_v0 (((cfg1.win 1).blk t).view.emb y) = V c main_v0 y
  refine congrArg (V c main_v0) ?_
  funext a; apply Fin.ext
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- Window 2's block is its whole array at every point. -/
theorem blk1_2 (c : Dev nD) (t : Fin cfg1.N) : iblk1 V c 2 t = V c main_v1 := by
  obtain ⟨e00, e01, e10, e11, e20, e21, e30, e31, e40, e41, e50, e51⟩ := idx_facts1 t
  funext y
  show V c main_v1 (((cfg1.win 2).blk t).view.emb y) = V c main_v1 y
  refine congrArg (V c main_v1) ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 3's block is its whole array at every point. -/
theorem blk1_3 (c : Dev nD) (t : Fin cfg1.N) : iblk1 V c 3 t = V c main_arg4 := by
  obtain ⟨e00, e01, e10, e11, e20, e21, e30, e31, e40, e41, e50, e51⟩ := idx_facts1 t
  funext y
  show V c main_arg4 (((cfg1.win 3).blk t).view.emb y) = V c main_arg4 y
  refine congrArg (V c main_arg4) ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- What a point writes back through window 4 is its block of relu (adj · h + b) · w. -/
theorem flushed1_4 (c : Dev nD) (t : Fin cfg1.N) :
    (dat1 V c).flushed 4 t = ((cfg1.win 4).blk t).view.read (Elt Ideal)
      (layer (V c main_arg1) (V c main_v0) (fun i => V c main_v1 (ix2 (0 : Fin 1) (i 0))) (V c main_arg4)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x128) hz, View.ld_unit_zero (S := S1x128) hz, View.ld_unit_zero (S := S128x128) hz]
  rw [pay1_2, blk1_1, blk1_2, blk1_3]
  obtain ⟨e00, e01, e10, e11, e20, e21, e30, e31, e40, e41, e50, e51⟩ := idx_facts1 t
  funext j
  exact layer_rows (N := 10000) (G := 128) (G' := 128) (a := 200) (V c main_arg1) (iblk1 V c 0 t)
    (fun y => ((cfg1.win 0).blk t).view.emb y) (t.val * 200) (fun y => rfl)
    (fun y => by show win1_0.index t (0 : Fin 2) * 200 + 1 * (y 0).val = _; rw [e00]; omega)
    (fun y => by show win1_0.index t (1 : Fin 2) * 10000 + 1 * (y 1).val = _; rw [e01]; omega)
    (V c main_v0) (fun i => V c main_v1 (ix2 (0 : Fin 1) (i 0))) (V c main_arg4)
    (fun y => ((cfg1.win 4).blk t).view.emb y)
    (fun y => by show win1_4.index t (0 : Fin 2) * 200 + 1 * (y 0).val = _; rw [e40]; omega)
    (fun y => by show win1_4.index t (1 : Fin 2) * 128 + 1 * (y 1).val = _; rw [e41]; omega) j

/-- What a point writes back through window 5 is its block of the adjacency matrix. -/
theorem flushed1_5 (c : Dev nD) (t : Fin cfg1.N) :
    (dat1 V c).flushed 5 t = ((cfg1.win 5).blk t).view.read (Elt Ideal) (V c main_arg1) := by
  show (cfg1.win 5).cut (grid1.coords t) ((dat1 V c).after 5 t) = _
  rw [after1_5]
  unfold out1_5
  rw [View.canon_unit_zero hz]
  simp only [View.ld_unit_zero (S := S200x10000) hz, View.ld_unit_zero (S := S10000x128) hz, View.ld_unit_zero (S := S1x128) hz, View.ld_unit_zero (S := S128x128) hz]
  obtain ⟨e00, e01, e10, e11, e20, e21, e30, e31, e40, e41, e50, e51⟩ := idx_facts1 t
  funext j
  show V c main_arg1 (((cfg1.win 0).blk t).view.emb j) = V c main_arg1 (((cfg1.win 5).blk t).view.emb j)
  refine congrArg (V c main_arg1) ?_
  funext a; apply Fin.ext
  match a with
  | ⟨0, _⟩ => show win1_0.index t (0 : Fin 2) * 200 + 1 * (j 0).val = win1_5.index t (0 : Fin 2) * 200 + 1 * (j 0).val; omega
  | ⟨1, _⟩ => show win1_0.index t (1 : Fin 2) * 10000 + 1 * (j 1).val = win1_5.index t (1 : Fin 2) * 10000 + 1 * (j 1).val; omega

/-- An index of the array lies in a point's block of window 4 iff each coordinate is in the block's range. -/
theorem mem_blk1_4 (t : Fin cfg1.N) (i : S10000x128.Idx) :
    i ∈ ((cfg1.win 4).blk t).view.set ↔ ∀ a : Fin 2, win1_4.index t a * S200x128.size a ≤ (i a).val ∧ (i a).val < win1_4.index t a * S200x128.size a + S200x128.size a := by
  show i ∈ ((View.whole main_v2_0).slice (win1_4.rect t)).set ↔ _
  rw [View.set_slice_whole, Rect.mem_set_unit]
  exact Iff.rfl

/-- Every row of the array is in the block of the point numbered by the row's block of 200 rows. -/
theorem covered1_4 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  have hN : cfg1.N = 50 := N_1
  have ht : (i 0).val / 200 < cfg1.N := by rw [hN]; omega
  obtain ⟨e00, e01, e10, e11, e20, e21, e30, e31, e40, e41, e50, e51⟩ := idx_facts1 ⟨(i 0).val / 200, ht⟩
  refine ⟨⟨(i 0).val / 200, ht⟩, flush1_4 _, ?_⟩
  rw [mem_blk1_4]
  intro a
  match a with
  | ⟨0, _⟩ =>
    show win1_4.index ⟨(i 0).val / 200, ht⟩ (0 : Fin 2) * 200 ≤ (i 0).val ∧ (i 0).val < win1_4.index ⟨(i 0).val / 200, ht⟩ (0 : Fin 2) * 200 + 200
    rw [e40]
    show (i 0).val / 200 * 200 ≤ (i 0).val ∧ (i 0).val < (i 0).val / 200 * 200 + 200
    omega
  | ⟨1, _⟩ =>
    show win1_4.index ⟨(i 0).val / 200, ht⟩ (1 : Fin 2) * 128 ≤ (i 1).val ∧ (i 1).val < win1_4.index ⟨(i 0).val / 200, ht⟩ (1 : Fin 2) * 128 + 128
    rw [e41]
    omega

/-- An index of the array lies in a point's block of window 5 iff each coordinate is in the block's range. -/
theorem mem_blk1_5 (t : Fin cfg1.N) (i : S10000x10000.Idx) :
    i ∈ ((cfg1.win 5).blk t).view.set ↔ ∀ a : Fin 2, win1_5.index t a * S200x10000.size a ≤ (i a).val ∧ (i a).val < win1_5.index t a * S200x10000.size a + S200x10000.size a := by
  show i ∈ ((View.whole main_v2_1).slice (win1_5.rect t)).set ↔ _
  rw [View.set_slice_whole, Rect.mem_set_unit]
  exact Iff.rfl

/-- Every row of the array is in the block of the point numbered by the row's block of 200 rows. -/
theorem covered1_5 (i : S10000x10000.Idx) : ∃ t : Fin cfg1.N, (cfg1.win 5).flush t = true ∧ i ∈ ((cfg1.win 5).blk t).view.set := by
  have hi0 : (i 0).val < 10000 := (i 0).isLt
  have hi1 : (i 1).val < 10000 := (i 1).isLt
  have hN : cfg1.N = 50 := N_1
  have ht : (i 0).val / 200 < cfg1.N := by rw [hN]; omega
  obtain ⟨e00, e01, e10, e11, e20, e21, e30, e31, e40, e41, e50, e51⟩ := idx_facts1 ⟨(i 0).val / 200, ht⟩
  refine ⟨⟨(i 0).val / 200, ht⟩, flush1_5 _, ?_⟩
  rw [mem_blk1_5]
  intro a
  match a with
  | ⟨0, _⟩ =>
    show win1_5.index ⟨(i 0).val / 200, ht⟩ (0 : Fin 2) * 200 ≤ (i 0).val ∧ (i 0).val < win1_5.index ⟨(i 0).val / 200, ht⟩ (0 : Fin 2) * 200 + 200
    rw [e50]
    show (i 0).val / 200 * 200 ≤ (i 0).val ∧ (i 0).val < (i 0).val / 200 * 200 + 200
    omega
  | ⟨1, _⟩ =>
    show win1_5.index ⟨(i 0).val / 200, ht⟩ (1 : Fin 2) * 10000 ≤ (i 1).val ∧ (i 1).val < win1_5.index ⟨(i 0).val / 200, ht⟩ (1 : Fin 2) * 10000 + 10000
    rw [e51]
    omega

/-- After the region the first output array holds relu (adj · h + b) · w of the arrays as the region finds them. -/
theorem arr1_4 (c : Dev nD) : (dat1 V c).arrAt 4 cfg1.N
    = layer (V c main_arg1) (V c main_v0) (fun i => V c main_v1 (ix2 (0 : Fin 1) (i 0))) (V c main_arg4) :=
  (dat1 V c).arrAt_eq_of_cover 4 _ (fun t _ => flushed1_4 V c t) covered1_4

/-- And the second the adjacency matrix. -/
theorem arr1_5 (c : Dev nD) : (dat1 V c).arrAt 5 cfg1.N = V c main_arg1 :=
  (dat1 V c).arrAt_eq_of_cover 5 _ (fun t _ => flushed1_5 V c t) covered1_5

end Cert.KernelIdeal.KValue

end
-- ==== Proof.KRegion2.lean ====
/-
  The third region: the same layer over blocks of 400 rows of the adjacency matrix, with the weights of the
  last layer.  At a point the body multiplies the block by the resident features, adds the bias to every row,
  takes the maximum with zero and multiplies by the weights; the written blocks are the blocks of
  relu (adj · h + b) · w and cover all rows.
-/
import proofs.«137731_g22393959481936_cont_8to1_100_3_alg».proof.Proof.Gen.KernelIdeal.Frame
import proofs.«137731_g22393959481936_cont_8to1_100_3_alg».proof.Proof.KCommon

set_option maxRecDepth 16384

noncomputable section

namespace Cert.KernelIdeal.KValue

open Cert.KernelIdeal Cert.KernelIdeal.Gen Idealize.ShloMosaic Idealize.ShloMosaic.TcCoe Idealize.ShloMosaic.ValueIdx Cert.LibMatmul Cert.Gcn
open Idealize.SL.Sem
open Idealize.ShloMosaic.Pipeline (Dat Cfg Window)

variable (V : (c : Dev nD) → (b : Ref sig .tc) → Buf (Elt Ideal) ((c : Thread nD τ).loc b))

/-- The body's arithmetic, on whole blocks. -/
theorem pay2_1 (v0 : Vec Ideal S400x10000 .bf16) (v2 : Vec Ideal S10000x128 .bf16) (v5 : Vec Ideal S1x128 .f32) (v11 : Vec Ideal S128x16 .f32) :
    k2_pay1 v0 v2 v5 v11 = MM (relu (addRow (MM v0 v2) (fun i => v5 (ix2 (0 : Fin 1) (i 0))))) v11 := by
  unfold k2_pay1
  simp only [shapeCast_self, truncf_bf16_eq]
  rw [mm_eq dot_S400x128_S128x16_S400x16_1_0_0_1_n_n rfl rfl rfl rfl rfl rfl, mm_eq dot_S400x10000_S10000x128_S400x128_1_0_0_1_n_n rfl rfl rfl rfl rfl rfl, row_bcast_eq]
  rfl

/-- The index maps over the grid: the adjacency block and the output block move down with the point, every
    other window stays at block 0. -/
theorem idx_facts2 : ∀ t : Fin cfg2.N, win2_0.index t (0 : Fin 2) = t.val
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 1's block is its whole array at every point. -/
theorem blk2_1 (c : Dev nD) (t : Fin cfg2.N) : iblk2 V c 1 t = V c main_v2_0 := by
  obtain ⟨e00, e01, e10, e11, e20, e21, e30, e31, e40, e41⟩ := idx_facts2 t
  funext y
  show V c main_v2_0 (((cfg2.win 1).blk t).view.emb y) = V c main_v2_0 y
  refine congrArg (V c main_v2_0) ?_
  funext a; apply Fin.ext
  match a with
  | ⟨0, _⟩ => show win2_1.index t (0 : Fin 2) * 10000 + 1 * (y 0).val = (y 0).val; omega
  | ⟨1, _⟩ => show win2_1.index t (1 : Fin 2) * 128 + 1 * (y 1).val = (y 1).val; omega

/-- Window 2's block is its whole array at every point. -/
theorem blk2_2 (c : Dev nD) (t : Fin cfg2.N) : iblk2 V c 2 t = V c main_v3 := by
  obtain ⟨e00, e01, e10, e11, e20, e21, e30, e31, e40, e41⟩ := idx_facts2 t
  funext y
  show V c main_v3 (((cfg2.win 2).blk t).view.emb y) = V c main_v3 y
  refine congrArg (V c main_v3) ?_
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3's block is its whole array at every point. -/
theorem blk2_3 (c : Dev nD) (t : Fin cfg2.N) : iblk2 V c 3 t = V c main_arg6 := by
  obtain ⟨e00, e01, e10, e11, e20, e21, e30, e31, e40, e41⟩ := idx_facts2 t
  funext y
  show V c main_arg6 (((cfg2.win 3).blk t).view.emb y) = V c main_arg6 y
  refine congrArg (V c main_arg6) ?_
  funext a; apply Fin.ext
  match a with
  | ⟨0, _⟩ => show win2_3.index t (0 : Fin 2) * 128 + 1 * (y 0).val = (y 0).val; omega
  | ⟨1, _⟩ => show win2_3.index t (1 : Fin 2) * 16 + 1 * (y 1).val = (y 1).val; omega

/-- What a point writes back is its block of relu (adj · h + b) · w. -/
theorem flushed2_4 (c : Dev nD) (t : Fin cfg2.N) :
    (dat2 V c).flushed 4 t = ((cfg2.win 4).blk t).view.read (Elt Ideal)
      (layer (V c main_v2_1) (V c main_v2_0) (fun i => V c main_v3 (ix2 (0 : Fin 1) (i 0))) (V c main_arg6)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x128) hz, View.ld_unit_zero (S := S1x128) hz, View.ld_unit_zero (S := S128x16) hz]
  rw [pay2_1, blk2_1, blk2_2, blk2_3]
  obtain ⟨e00, e01, e10, e11, e20, e21, e30, e31, e40, e41⟩ := idx_facts2 t
  funext j
  exact layer_rows (N := 10000) (G := 128) (G' := 16) (a := 400) (V c main_v2_1) (iblk2 V c 0 t)
    (fun y => ((cfg2.win 0).blk t).view.emb y) (t.val * 400) (fun y => rfl)
    (fun y => by show win2_0.index t (0 : Fin 2) * 400 + 1 * (y 0).val = _; rw [e00]; omega)
    (fun y => by show win2_0.index t (1 : Fin 2) * 10000 + 1 * (y 1).val = _; rw [e01]; omega)
    (V c main_v2_0) (fun i => V c main_v3 (ix2 (0 : Fin 1) (i 0))) (V c main_arg6)
    (fun y => ((cfg2.win 4).blk t).view.emb y)
    (fun y => by show win2_4.index t (0 : Fin 2) * 400 + 1 * (y 0).val = _; rw [e40]; omega)
    (fun y => by show win2_4.index t (1 : Fin 2) * 16 + 1 * (y 1).val = _; rw [e41]; omega) j

/-- An index of the array lies in a point's block of window 4 iff each coordinate is in the block's range. -/
theorem mem_blk2_4 (t : Fin cfg2.N) (i : S10000x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_v4).slice (win2_4.rect t)).set ↔ _
  rw [View.set_slice_whole, Rect.mem_set_unit]
  exact Iff.rfl

/-- Every row of the array is in the block of the point numbered by the row's block of 400 rows. -/
theorem covered2_4 (i : S10000x16.Idx) : ∃ t : Fin cfg2.N, (cfg2.win 4).flush t = true ∧ i ∈ ((cfg2.win 4).blk t).view.set := by
  have hi0 : (i 0).val < 10000 := (i 0).isLt
  have hi1 : (i 1).val < 16 := (i 1).isLt
  have hN : cfg2.N = 25 := N_2
  have ht : (i 0).val / 400 < cfg2.N := by rw [hN]; omega
  obtain ⟨e00, e01, e10, e11, e20, e21, e30, e31, e40, e41⟩ := idx_facts2 ⟨(i 0).val / 400, ht⟩
  refine ⟨⟨(i 0).val / 400, ht⟩, flush2_4 _, ?_⟩
  rw [mem_blk2_4]
  intro a
  match a with
  | ⟨0, _⟩ =>
    show win2_4.index ⟨(i 0).val / 400, ht⟩ (0 : Fin 2) * 400 ≤ (i 0).val ∧ (i 0).val < win2_4.index ⟨(i 0).val / 400, ht⟩ (0 : Fin 2) * 400 + 400
    rw [e40]
    show (i 0).val / 400 * 400 ≤ (i 0).val ∧ (i 0).val < (i 0).val / 400 * 400 + 400
    omega
  | ⟨1, _⟩ =>
    show win2_4.index ⟨(i 0).val / 400, ht⟩ (1 : Fin 2) * 16 ≤ (i 1).val ∧ (i 1).val < win2_4.index ⟨(i 0).val / 400, ht⟩ (1 : Fin 2) * 16 + 16
    rw [e41]
    omega

/-- After the region the output array holds relu (adj · h + b) · w of the arrays as the region finds them. -/
theorem arr2_4 (c : Dev nD) : (dat2 V c).arrAt 4 cfg2.N
    = layer (V c main_v2_1) (V c main_v2_0) (fun i => V c main_v3 (ix2 (0 : Fin 1) (i 0))) (V c main_arg6) :=
  (dat2 V c).arrAt_eq_of_cover 4 _ (fun t _ => flushed2_4 V c t) covered2_4

end Cert.KernelIdeal.KValue

end
-- ==== Proof.KRegion3.lean ====
/-
  The fourth region: the last layer's pre-activation over blocks of 400 rows of the adjacency matrix.  At a
  point the body multiplies the block by the resident features and adds the bias to every row; the written
  blocks are the blocks of adj · h + b and cover all rows.
-/
import proofs.«137731_g22393959481936_cont_8to1_100_3_alg».proof.Proof.Gen.KernelIdeal.Frame
import proofs.«137731_g22393959481936_cont_8to1_100_3_alg».proof.Proof.KCommon

set_option maxRecDepth 16384

noncomputable section

namespace Cert.KernelIdeal.KValue

open Cert.KernelIdeal Cert.KernelIdeal.Gen Idealize.ShloMosaic Idealize.ShloMosaic.TcCoe Idealize.ShloMosaic.ValueIdx Cert.LibMatmul Cert.Gcn
open Idealize.SL.Sem
open Idealize.ShloMosaic.Pipeline (Dat Cfg Window)

variable (V : (c : Dev nD) → (b : Ref sig .tc) → Buf (Elt Ideal) ((c : Thread nD τ).loc b))

/-- The body's arithmetic, on whole blocks. -/
theorem pay3_1 (v0 : Vec Ideal S400x10000 .bf16) (v2 : Vec Ideal S10000x16 .bf16) (v5 : Vec Ideal S1x16 .f32) :
    k3_pay1 v0 v2 v5 = addRow (MM v0 v2) (fun i => v5 (ix2 (0 : Fin 1) (i 0))) := by
  unfold k3_pay1
  simp only [shapeCast_self]
  rw [mm_eq dot_S400x10000_S10000x16_S400x16_1_0_0_1_n_n rfl rfl rfl rfl rfl rfl, row_bcast_eq]
  rfl

/-- The index maps over the grid: the adjacency block and the output block move down with the point, every
    other window stays at block 0. -/
theorem idx_facts3 : ∀ t : Fin cfg3.N, win3_0.index t (0 : Fin 2) = t.val
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Window 1's block is its whole array at every point. -/
theorem blk3_1 (c : Dev nD) (t : Fin cfg3.N) : iblk3 V c 1 t = V c main_v4 := by
  obtain ⟨e00, e01, e10, e11, e20, e21, e30, e31⟩ := idx_facts3 t
  funext y
  show V c main_v4 (((cfg3.win 1).blk t).view.emb y) = V c main_v4 y
  refine congrArg (V c main_v4) ?_
  funext a; apply Fin.ext
  match a with
  | ⟨0, _⟩ => show win3_1.index t (0 : Fin 2) * 10000 + 1 * (y 0).val = (y 0).val; omega
  | ⟨1, _⟩ => show win3_1.index t (1 : Fin 2) * 16 + 1 * (y 1).val = (y 1).val; omega

/-- Window 2's block is its whole array at every point. -/
theorem blk3_2 (c : Dev nD) (t : Fin cfg3.N) : iblk3 V c 2 t = V c main_v5 := by
  obtain ⟨e00, e01, e10, e11, e20, e21, e30, e31⟩ := idx_facts3 t
  funext y
  show V c main_v5 (((cfg3.win 2).blk t).view.emb y) = V c main_v5 y
  refine congrArg (V c main_v5) ?_
  funext a; apply Fin.ext
  match a with
  | ⟨0, _⟩ => show win3_2.index t (0 : Fin 2) * 1 + 1 * (y 0).val = (y 0).val; omega
  | ⟨1, _⟩ => show win3_2.index t (1 : Fin 2) * 16 + 1 * (y 1).val = (y 1).val; omega

/-- What a point writes back is its block of adj · h + b. -/
theorem flushed3_3 (c : Dev nD) (t : Fin cfg3.N) :
    (dat3 V c).flushed 3 t = ((cfg3.win 3).blk t).view.read (Elt Ideal)
      (affine (V c main_v2_1) (V c main_v4) (fun i => V c main_v5 (ix2 (0 : Fin 1) (i 0)))) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x16) hz, View.ld_unit_zero (S := S1x16) hz]
  rw [pay3_1, blk3_1, blk3_2]
  obtain ⟨e00, e01, e10, e11, e20, e21, e30, e31⟩ := idx_facts3 t
  funext j
  exact affine_rows (N := 10000) (G := 16) (a := 400) (V c main_v2_1) (iblk3 V c 0 t)
    (fun y => ((cfg3.win 0).blk t).view.emb y) (t.val * 400) (fun y => rfl)
    (fun y => by show win3_0.index t (0 : Fin 2) * 400 + 1 * (y 0).val = _; rw [e00]; omega)
    (fun y => by show win3_0.index t (1 : Fin 2) * 10000 + 1 * (y 1).val = _; rw [e01]; omega)
    (V c main_v4) (fun i => V c main_v5 (ix2 (0 : Fin 1) (i 0)))
    (fun y => ((cfg3.win 3).blk t).view.emb y)
    (fun y => by show win3_3.index t (0 : Fin 2) * 400 + 1 * (y 0).val = _; rw [e30]; omega)
    (fun y => by show win3_3.index t (1 : Fin 2) * 16 + 1 * (y 1).val = _; rw [e31]; omega) j

/-- An index of the array lies in a point's block of window 3 iff each coordinate is in the block's range. -/
theorem mem_blk3_3 (t : Fin cfg3.N) (i : S10000x16.Idx) :
    i ∈ ((cfg3.win 3).blk t).view.set ↔ ∀ a : Fin 2, win3_3.index t a * S400x16.size a ≤ (i a).val ∧ (i a).val < win3_3.index t a * S400x16.size a + S400x16.size a := by
  show i ∈ ((View.whole main_v6).slice (win3_3.rect t)).set ↔ _
  rw [View.set_slice_whole, Rect.mem_set_unit]
  exact Iff.rfl

/-- Every row of the array is in the block of the point numbered by the row's block of 400 rows. -/
theorem covered3_3 (i : S10000x16.Idx) : ∃ t : Fin cfg3.N, (cfg3.win 3).flush t = true ∧ i ∈ ((cfg3.win 3).blk t).view.set := by
  have hi0 : (i 0).val < 10000 := (i 0).isLt
  have hi1 : (i 1).val < 16 := (i 1).isLt
  have hN : cfg3.N = 25 := N_3
  have ht : (i 0).val / 400 < cfg3.N := by rw [hN]; omega
  obtain ⟨e00, e01, e10, e11, e20, e21, e30, e31⟩ := idx_facts3 ⟨(i 0).val / 400, ht⟩
  refine ⟨⟨(i 0).val / 400, ht⟩, flush3_3 _, ?_⟩
  rw [mem_blk3_3]
  intro a
  match a with
  | ⟨0, _⟩ =>
    show win3_3.index ⟨(i 0).val / 400, ht⟩ (0 : Fin 2) * 400 ≤ (i 0).val ∧ (i 0).val < win3_3.index ⟨(i 0).val / 400, ht⟩ (0 : Fin 2) * 400 + 400
    rw [e30]
    show (i 0).val / 400 * 400 ≤ (i 0).val ∧ (i 0).val < (i 0).val / 400 * 400 + 400
    omega
  | ⟨1, _⟩ =>
    show win3_3.index ⟨(i 0).val / 400, ht⟩ (1 : Fin 2) * 16 ≤ (i 1).val ∧ (i 1).val < win3_3.index ⟨(i 0).val / 400, ht⟩ (1 : Fin 2) * 16 + 16
    rw [e31]
    omega

/-- After the region the output array holds adj · h + b of the arrays as the region finds them. -/
theorem arr3_3 (c : Dev nD) : (dat3 V c).arrAt 3 cfg3.N
    = affine (V c main_v2_1) (V c main_v4) (fun i => V c main_v5 (ix2 (0 : Fin 1) (i 0))) :=
  (dat3 V c).arrAt_eq_of_cover 3 _ (fun t _ => flushed3_3 V c t) covered3_3

end Cert.KernelIdeal.KValue

end
-- ==== Proof.KRegion4.lean ====
/-
  The last region: the Gram matrix over blocks of 400 rows.  At a point the body multiplies the block of the
  embeddings by the resident transposed embeddings; the written blocks are the blocks of z · zt and cover
  all rows.
-/
import proofs.«137731_g22393959481936_cont_8to1_100_3_alg».proof.Proof.Gen.KernelIdeal.Frame
import proofs.«137731_g22393959481936_cont_8to1_100_3_alg».proof.Proof.KCommon

set_option maxRecDepth 16384

noncomputable section

namespace Cert.KernelIdeal.KValue

open Cert.KernelIdeal Cert.KernelIdeal.Gen Idealize.ShloMosaic Idealize.ShloMosaic.TcCoe Idealize.ShloMosaic.ValueIdx Cert.LibMatmul Cert.Gcn
open Idealize.SL.Sem
open Idealize.ShloMosaic.Pipeline (Dat Cfg Window)

variable (V : (c : Dev nD) → (b : Ref sig .tc) → Buf (Elt Ideal) ((c : Thread nD τ).loc b))

/-- The body's arithmetic, on whole blocks. -/
theorem pay4_1 (v0 : Vec Ideal S400x16 .f32) (v2 : Vec Ideal S16x10000 .f32) : k4_pay1 v0 v2 = MM v0 v2 := by
  unfold k4_pay1
  simp only [shapeCast_self]
  exact mm_eq dot_S400x16_S16x10000_S400x10000_1_0_0_1_n_n rfl rfl rfl rfl rfl rfl v0 v2

/-- The index maps over the grid: the embeddings' block and the output block move down with the point, the
    transposed embeddings stay at block 0. -/
theorem idx_facts4 : ∀ t : Fin cfg4.N, win4_0.index t (0 : Fin 2) = t.val
    ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Window 1's block is its whole array at every point. -/
theorem blk4_1 (c : Dev nD) (t : Fin cfg4.N) : iblk4 V c 1 t = V c main_v7 := by
  obtain ⟨e00, e01, e10, e11, e20, e21⟩ := idx_facts4 t
  funext y
  show V c main_v7 (((cfg4.win 1).blk t).view.emb y) = V c main_v7 y
  refine congrArg (V c main_v7) ?_
  funext a; apply Fin.ext
  match a with
  | ⟨0, _⟩ => show win4_1.index t (0 : Fin 2) * 16 + 1 * (y 0).val = (y 0).val; omega
  | ⟨1, _⟩ => show win4_1.index t (1 : Fin 2) * 10000 + 1 * (y 1).val = (y 1).val; omega

/-- What a point writes back is its block of z · zt. -/
theorem flushed4_2 (c : Dev nD) (t : Fin cfg4.N) :
    (dat4 V c).flushed 2 t = ((cfg4.win 2).blk t).view.read (Elt Ideal) (MM (V c main_v6) (V c main_v7)) := by
  show (cfg4.win 2).cut (grid4.coords t) ((dat4 V c).after 2 t) = _
  rw [after4_2]
  unfold out4_2
  rw [View.canon_unit_zero hz]
  simp only [View.ld_unit_zero (S := S400x16) hz, View.ld_unit_zero (S := S16x10000) hz]
  rw [pay4_1, blk4_1]
  obtain ⟨e00, e01, e10, e11, e20, e21⟩ := idx_facts4 t
  funext j
  exact MM_rows (A := 10000) (K := 16) (G := 10000) (a := 400) (V c main_v6) (iblk4 V c 0 t)
    (fun y => ((cfg4.win 0).blk t).view.emb y) (t.val * 400) (fun y => rfl)
    (fun y => by show win4_0.index t (0 : Fin 2) * 400 + 1 * (y 0).val = _; rw [e00]; omega)
    (fun y => by show win4_0.index t (1 : Fin 2) * 16 + 1 * (y 1).val = _; rw [e01]; omega)
    (V c main_v7)
    (fun y => ((cfg4.win 2).blk t).view.emb y)
    (fun y => by show win4_2.index t (0 : Fin 2) * 400 + 1 * (y 0).val = _; rw [e20]; omega)
    (fun y => by show win4_2.index t (1 : Fin 2) * 10000 + 1 * (y 1).val = _; rw [e21]; omega) j

/-- An index of the array lies in a point's block of window 2 iff each coordinate is in the block's range. -/
theorem mem_blk4_2 (t : Fin cfg4.N) (i : S10000x10000.Idx) :
    i ∈ ((cfg4.win 2).blk t).view.set ↔ ∀ a : Fin 2, win4_2.index t a * S400x10000.size a ≤ (i a).val ∧ (i a).val < win4_2.index t a * S400x10000.size a + S400x10000.size a := by
  show i ∈ ((View.whole main_v8).slice (win4_2.rect t)).set ↔ _
  rw [View.set_slice_whole, Rect.mem_set_unit]
  exact Iff.rfl

/-- Every row of the array is in the block of the point numbered by the row's block of 400 rows. -/
theorem covered4_2 (i : S10000x10000.Idx) : ∃ t : Fin cfg4.N, (cfg4.win 2).flush t = true ∧ i ∈ ((cfg4.win 2).blk t).view.set := by
  have hi0 : (i 0).val < 10000 := (i 0).isLt
  have hi1 : (i 1).val < 10000 := (i 1).isLt
  have hN : cfg4.N = 25 := N_4
  have ht : (i 0).val / 400 < cfg4.N := by rw [hN]; omega
  obtain ⟨e00, e01, e10, e11, e20, e21⟩ := idx_facts4 ⟨(i 0).val / 400, ht⟩
  refine ⟨⟨(i 0).val / 400, ht⟩, flush4_2 _, ?_⟩
  rw [mem_blk4_2]
  intro a
  match a with
  | ⟨0, _⟩ =>
    show win4_2.index ⟨(i 0).val / 400, ht⟩ (0 : Fin 2) * 400 ≤ (i 0).val ∧ (i 0).val < win4_2.index ⟨(i 0).val / 400, ht⟩ (0 : Fin 2) * 400 + 400
    rw [e20]
    show (i 0).val / 400 * 400 ≤ (i 0).val ∧ (i 0).val < (i 0).val / 400 * 400 + 400
    omega
  | ⟨1, _⟩ =>
    show win4_2.index ⟨(i 0).val / 400, ht⟩ (1 : Fin 2) * 10000 ≤ (i 1).val ∧ (i 1).val < win4_2.index ⟨(i 0).val / 400, ht⟩ (1 : Fin 2) * 10000 + 10000
    rw [e21]
    omega

/-- After the region the output array holds z · zt of the arrays as the region finds them. -/
theorem arr4_2 (c : Dev nD) : (dat4 V c).arrAt 2 cfg4.N = MM (V c main_v6) (V c main_v7) :=
  (dat4 V c).arrAt_eq_of_cover 2 _ (fun t _ => flushed4_2 V c t) covered4_2

end Cert.KernelIdeal.KValue

end
-- ==== Proof.KChain.lean ====
/-
  The kernel program's result, read through the five regions.  The contents of the unscoped buffers at each
  boundary of @main are a fold from the launch memory; walking it, each region's output array is the region's
  function of the arrays it finds, each reshaped bias is the bias, the transposed embeddings are the transpose,
  and no host operation or region touches an argument or an earlier result that a later region reads.  So the
  result buffer ends holding z · zᵀ for the three-layer embeddings z of the arguments.
-/
import proofs.«137731_g22393959481936_cont_8to1_100_3_alg».proof.Proof.Gen.KernelIdeal.Frame
import proofs.«137731_g22393959481936_cont_8to1_100_3_alg».proof.Proof.KRegion0
import proofs.«137731_g22393959481936_cont_8to1_100_3_alg».proof.Proof.KRegion1
import proofs.«137731_g22393959481936_cont_8to1_100_3_alg».proof.Proof.KRegion2
import proofs.«137731_g22393959481936_cont_8to1_100_3_alg».proof.Proof.KRegion3
import proofs.«137731_g22393959481936_cont_8to1_100_3_alg».proof.Proof.KRegion4

set_option maxRecDepth 16384

noncomputable section

namespace Cert.KernelIdeal.KValue

open Cert.KernelIdeal Cert.KernelIdeal.Gen Idealize.ShloMosaic Idealize.ShloMosaic.TcCoe Idealize.ShloMosaic.ValueIdx Cert.LibMatmul Cert.Gcn
open Idealize.SL.Sem
open Idealize.ShloMosaic.Pipeline (Dat Cfg Window)

variable (m : (ℓ : Loc nD τ sig) → Buf (Elt Ideal) ℓ) (ρ : Dev nD → PrngReg) (c : Dev nD)

/-! ## What each host stretch keeps and writes -/

/-- The reshape of the first bias leaves every other buffer as it was. -/
theorem keep1 (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, StableHlo.unary_writes, Finset.mem_singleton]
    exact StableHlo.devRef_ne_of_ne hb))

/-- The reshape of the second bias leaves every other buffer as it was. -/
theorem keep2 (b : Ref sig .tc) (hb : b ≠ main_v3) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, StableHlo.unary_writes, Finset.mem_singleton]
    exact StableHlo.devRef_ne_of_ne hb))

/-- The reshape of the third bias leaves every other buffer as it was. -/
theorem keep3 (b : Ref sig .tc) (hb : b ≠ main_v5) :
    W6 m ρ c (Proc.devRef .tc b) = W5 m ρ c (Proc.devRef .tc b) :=
  StableHlo.after_of_forall_not_mem (b := Proc.devRef .tc b) _ _ (List.forall_iff_forall_mem.mp (by
    simp only [hostOps3, List.Forall, StableHlo.reshape_writes, StableHlo.unary_writes, Finset.mem_singleton]
    exact StableHlo.devRef_ne_of_ne hb))

/-- The transpose of the embeddings leaves every other buffer as it was. -/
theorem keep4 (b : Ref sig .tc) (hb : b ≠ main_v7) :
    W8 m ρ c (Proc.devRef .tc b) = W7 m ρ c (Proc.devRef .tc b) :=
  StableHlo.after_of_forall_not_mem (b := Proc.devRef .tc b) _ _ (List.forall_iff_forall_mem.mp (by
    simp only [hostOps4, List.Forall, StableHlo.reshape_writes, StableHlo.unary_writes, Finset.mem_singleton]
    exact StableHlo.devRef_ne_of_ne hb))

/-- A bias reshaped to one row, read back as a length-G array, is the bias. -/
theorem row_of_reshape {G : ℕ} (b : (⟨1, ![G]⟩ : Shape).Idx → EReal) (h : (⟨1, ![G]⟩ : Shape).ShapeCasts ⟨2, ![1, G]⟩) :
    (fun i : (⟨1, ![G]⟩ : Shape).Idx => shapeCast ⟨2, ![1, G]⟩ b h (ix2 (0 : Fin 1) (i 0))) = b := by
  funext i
  exact (shapeCast_a_1a_apply b h 0 (i 0)).trans (congrArg b (eq_ix1 i).symm)

/-! ## The arguments, at the boundaries where a later region or host operation reads them -/

/-- After the first region an argument it does not write is as launched. -/
theorem W1_arg (b : Ref sig .tc) (h0 : ∀ w, Pipeline.arrRef spec0 w ≠ b) :
    W1 m ρ c (Proc.devRef .tc b) = m ((c : Thread nD τ).loc b) :=
  (W1_of_ne m ρ c b h0).trans rfl

theorem W2_arg (b : Ref sig .tc) (h1 : b ≠ main_v1) (h0 : ∀ w, Pipeline.arrRef spec0 w ≠ b) :
    W2 m ρ c (Proc.devRef .tc b) = m ((c : Thread nD τ).loc b) :=
  (keep1 m ρ c b h1).trans (W1_arg m ρ c b h0)

theorem W3_arg (b : Ref sig .tc) (h2 : ∀ w, Pipeline.arrRef spec1 w ≠ b) (h1 : b ≠ main_v1) (h0 : ∀ w, Pipeline.arrRef spec0 w ≠ b) :
    W3 m ρ c (Proc.devRef .tc b) = m ((c : Thread nD τ).loc b) :=
  (W3_of_ne m ρ c b h2).trans (W2_arg m ρ c b h1 h0)

theorem W4_arg (b : Ref sig .tc) (h3 : b ≠ main_v3) (h2 : ∀ w, Pipeline.arrRef spec1 w ≠ b) (h1 : b ≠ main_v1)
    (h0 : ∀ w, Pipeline.arrRef spec0 w ≠ b) : W4 m ρ c (Proc.devRef .tc b) = m ((c : Thread nD τ).loc b) :=
  (keep2 m ρ c b h3).trans (W3_arg m ρ c b h2 h1 h0)

theorem W5_arg (b : Ref sig .tc) (h4 : ∀ w, Pipeline.arrRef spec2 w ≠ b) (h3 : b ≠ main_v3) (h2 : ∀ w, Pipeline.arrRef spec1 w ≠ b)
    (h1 : b ≠ main_v1) (h0 : ∀ w, Pipeline.arrRef spec0 w ≠ b) : W5 m ρ c (Proc.devRef .tc b) = m ((c : Thread nD τ).loc b) :=
  (W5_of_ne m ρ c b h4).trans (W4_arg m ρ c b h3 h2 h1 h0)

/-! ## The values, region by region -/

/-- The features times the first weights. -/
abbrev H1 : S10000x128.Idx → EReal := MM (m ((c : Thread nD τ).loc main_arg0)) (m ((c : Thread nD τ).loc main_arg2))
/-- The first layer, times the second weights. -/
abbrev H2 : S10000x128.Idx → EReal :=
  layer (m ((c : Thread nD τ).loc main_arg1)) (H1 m c) (m ((c : Thread nD τ).loc main_arg3)) (m ((c : Thread nD τ).loc main_arg4))
/-- The second layer, times the third weights. -/
abbrev H3 : S10000x16.Idx → EReal :=
  layer (m ((c : Thread nD τ).loc main_arg1)) (H2 m c) (m ((c : Thread nD τ).loc main_arg5)) (m ((c : Thread nD τ).loc main_arg6))
/-- The embeddings. -/
abbrev Z : S10000x16.Idx → EReal :=
  affine (m ((c : Thread nD τ).loc main_arg1)) (H3 m c) (m ((c : Thread nD τ).loc main_arg7))

/-- The first region leaves feat · W1. -/
theorem W1_v0 : W1 m ρ c (Proc.devRef .tc main_v0) = H1 m c :=
  (W1_arr m ρ c 2).trans (arr0_2 (V0 m ρ) c)

/-- The reshaped first bias. -/
theorem W2_v1 : W2 m ρ c (Proc.devRef .tc main_v1)
    = shapeCast S1x128 (m ((c : Thread nD τ).loc main_arg3)) shapeCasts_S128_S1x128 := by
  show StableHlo.after hostOps1 (W1 m ρ c) (Proc.devRef .tc main_v1) = _
  after_results
  rw [W1_arg m ρ c main_arg3 (by decide)]
  rfl

/-- The second region leaves the first layer times the second weights, and the adjacency matrix. -/
theorem W3_v2_0 : W3 m ρ c (Proc.devRef .tc main_v2_0) = H2 m c := by
  refine (W3_arr m ρ c 4).trans ((arr1_4 (V2 m ρ) c).trans ?_)
  have e1 : V2 m ρ c main_arg1 = m ((c : Thread nD τ).loc main_arg1) := W2_arg m ρ c main_arg1 (by decide) (by decide)
  have e2 : V2 m ρ c main_v0 = H1 m c := (keep1 m ρ c main_v0 (by decide)).trans (W1_v0 m ρ c)
  have e3 : V2 m ρ c main_v1 = shapeCast S1x128 (m ((c : Thread nD τ).loc main_arg3)) shapeCasts_S128_S1x128 := W2_v1 m ρ c
  have e4 : V2 m ρ c main_arg4 = m ((c : Thread nD τ).loc main_arg4) := W2_arg m ρ c main_arg4 (by decide) (by decide)
  rw [e1, e2, e3, e4, row_of_reshape]

theorem W3_v2_1 : W3 m ρ c (Proc.devRef .tc main_v2_1) = m ((c : Thread nD τ).loc main_arg1) :=
  (W3_arr m ρ c 5).trans ((arr1_5 (V2 m ρ) c).trans (W2_arg m ρ c main_arg1 (by decide) (by decide)))

/-- The reshaped second bias. -/
theorem W4_v3 : W4 m ρ c (Proc.devRef .tc main_v3)
    = shapeCast S1x128 (m ((c : Thread nD τ).loc main_arg5)) shapeCasts_S128_S1x128 := by
  show StableHlo.after hostOps2 (W3 m ρ c) (Proc.devRef .tc main_v3) = _
  after_results
  rw [W3_arg m ρ c main_arg5 (by decide) (by decide) (by decide)]
  rfl

/-- The third region leaves the second layer times the third weights. -/
theorem W5_v4 : W5 m ρ c (Proc.devRef .tc main_v4) = H3 m c := by
  refine (W5_arr m ρ c 4).trans ((arr2_4 (V4 m ρ) c).trans ?_)
  have e1 : V4 m ρ c main_v2_1 = m ((c : Thread nD τ).loc main_arg1) := (keep2 m ρ c main_v2_1 (by decide)).trans (W3_v2_1 m ρ c)
  have e2 : V4 m ρ c main_v2_0 = H2 m c := (keep2 m ρ c main_v2_0 (by decide)).trans (W3_v2_0 m ρ c)
  have e3 : V4 m ρ c main_v3 = shapeCast S1x128 (m ((c : Thread nD τ).loc main_arg5)) shapeCasts_S128_S1x128 := W4_v3 m ρ c
  have e4 : V4 m ρ c main_arg6 = m ((c : Thread nD τ).loc main_arg6) := W4_arg m ρ c main_arg6 (by decide) (by decide) (by decide) (by decide)
  rw [e1, e2, e3, e4, row_of_reshape]

/-- The adjacency copy is an input of the third region: it leaves it as found. -/
theorem W5_v2_1 : W5 m ρ c (Proc.devRef .tc main_v2_1) = m ((c : Thread nD τ).loc main_arg1) :=
  ((W5_arr m ρ c 0).trans (((dat2 (V4 m ρ) c).arrAt_in 0 rfl _).trans (A_eq2 (V4 m ρ) c 0))).trans
    ((keep2 m ρ c main_v2_1 (by decide)).trans (W3_v2_1 m ρ c))

/-- The reshaped third bias. -/
theorem W6_v5 : W6 m ρ c (Proc.devRef .tc main_v5)
    = shapeCast S1x16 (m ((c : Thread nD τ).loc main_arg7)) shapeCasts_S16_S1x16 := by
  show StableHlo.after hostOps3 (W5 m ρ c) (Proc.devRef .tc main_v5) = _
  after_results
  rw [W5_arg m ρ c main_arg7 (by decide) (by decide) (by decide) (by decide) (by decide)]
  rfl

/-- The fourth region leaves the embeddings. -/
theorem W7_v6 : W7 m ρ c (Proc.devRef .tc main_v6) = Z m c := by
  refine (W7_arr m ρ c 3).trans ((arr3_3 (V6 m ρ) c).trans ?_)
  have e1 : V6 m ρ c main_v2_1 = m ((c : Thread nD τ).loc main_arg1) := (keep3 m ρ c main_v2_1 (by decide)).trans (W5_v2_1 m ρ c)
  have e2 : V6 m ρ c main_v4 = H3 m c := (keep3 m ρ c main_v4 (by decide)).trans (W5_v4 m ρ c)
  have e3 : V6 m ρ c main_v5 = shapeCast S1x16 (m ((c : Thread nD τ).loc main_arg7)) shapeCasts_S16_S1x16 := W6_v5 m ρ c
  rw [e1, e2, e3, row_of_reshape]

/-- The transposed embeddings. -/
theorem W8_v7 : W8 m ρ c (Proc.devRef .tc main_v7) = tr (Z m c) := by
  show StableHlo.after hostOps4 (W7 m ρ c) (Proc.devRef .tc main_v7) = _
  after_results
  rw [W7_v6 m ρ c]
  exact transpose_eq_tr _ _

/-- THE RESULT: the last region leaves z · zᵀ. -/
theorem W9_v8 : W9 m ρ c (Proc.devRef .tc main_v8)
    = gram (embed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) := by
  refine (W9_arr m ρ c 2).trans ((arr4_2 (V8 m ρ) c).trans ?_)
  have e1 : V8 m ρ c main_v6 = Z m c := (keep4 m ρ c main_v6 (by decide)).trans (W7_v6 m ρ c)
  have e2 : V8 m ρ c main_v7 = tr (Z m c) := W8_v7 m ρ c
  rw [e1, e2]
  rfl

end Cert.KernelIdeal.KValue

end
-- ==== Proof.LibBcastInDim.lean ====
/-
  The host's `broadcast_in_dim` in the four arrangements a row-wise reference uses, read as functions of the
  index: a scalar to any shape; a length-b array to one row and then down a rows; a length-a array to a column;
  a column across b columns.
-/
import Idealize.ShloMosaic.Lib.Pipeline.Value
import Idealize.ShloMosaic.Lib.ValueLayout

namespace Cert.LibBcastInDim

open Idealize.ShloMosaic Idealize.ShloMosaic.ValueIdx

variable {α : Type}

/-- A scalar broadcast to any shape holds the scalar everywhere. -/
theorem bid_scalar {t : Shape} (x : (⟨0, ![]⟩ : Shape).Idx → α)
    (h : (⟨0, ![]⟩ : Shape).BroadcastsInDim t (![] : Fin 0 → Fin t.rank)) :
    broadcastInDim t ![] h x = fun _ => x ix0 := by
  funext j
  exact broadcastInDim_apply _ h x j ix0 (fun a => a.elim0)

/-- A length-b array placed as one row and broadcast down a rows holds, at (p, c), its entry c. -/
theorem bid_row {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) :
    broadcastInDim ⟨2, ![a, b]⟩ ![0, 1] h2 (broadcastInDim ⟨2, ![1, b]⟩ ![1] h1 v) = fun i => v (ix1 (i 1)) := by
  funext i
  have hlt : (i 1).val < b := (i 1).isLt
  refine (broadcastInDim_apply _ h2 _ i (ix2 (0 : Fin 1) (i 1)) fun ax => ?_).trans
    (broadcastInDim_apply _ h1 v (ix2 (0 : Fin 1) (i 1)) (ix1 (i 1)) fun ax => ?_)
  · match ax with
    | ⟨0, _⟩ => rfl
    | ⟨1, _⟩ =>
      show (i 1).val = if b = 1 then 0 else (i 1).val
      split
      · omega
      · rfl
  · match ax with
    | ⟨0, _⟩ =>
      show (i 1).val = if b = 1 then 0 else (i 1).val
      split
      · omega
      · rfl

/-- A length-a array placed as a column holds, at (r, u), its entry r. -/
theorem bid_col {a : ℕ} (v : (⟨1, ![a]⟩ : Shape).Idx → α)
    (h : (⟨1, ![a]⟩ : Shape).BroadcastsInDim ⟨2, ![a, 1]⟩ (![0] : Fin 1 → Fin 2)) :
    broadcastInDim ⟨2, ![a, 1]⟩ ![0] h v = fun i => v (ix1 (i 0)) := by
  funext i
  have hlt : (i 0).val < a := (i 0).isLt
  refine broadcastInDim_apply _ h v i (ix1 (i 0)) fun ax => ?_
  match ax with
  | ⟨0, _⟩ =>
    show (i 0).val = if a = 1 then 0 else (i 0).val
    split
    · omega
    · rfl

/-- A column broadcast across b columns holds, at (r, c), the column's entry r. -/
theorem bid_across {a b : ℕ} (v : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ ![0, 1] h v = fun i => v (ix2 (i 0) (0 : Fin 1)) := by
  funext i
  have hlt : (i 0).val < a := (i 0).isLt
  refine broadcastInDim_apply _ h v i (ix2 (i 0) (0 : Fin 1)) fun ax => ?_
  match ax with
  | ⟨0, _⟩ =>
    show (i 0).val = if a = 1 then 0 else (i 0).val
    split
    · omega
    · rfl
  | ⟨1, _⟩ => rfl

end Cert.LibBcastInDim
-- ==== Proof.RefValue.lean ====
/-
  The reference, read as the function of its arguments: every host `dot_general` is the plain matrix
  product, a bias laid out as one row and repeated down the rows adds the bias entry of the column, the
  maximum with the zero splat is the relu, and the transposed embeddings enter the last product; so the
  reference's result is z · zᵀ for the three-layer embeddings z.
-/
import proofs.«137731_g22393959481936_cont_8to1_100_3_alg».proof.Proof.Gen.ReferenceIdeal.Run
import proofs.«137731_g22393959481936_cont_8to1_100_3_alg».proof.Proof.Spec
import proofs.«137731_g22393959481936_cont_8to1_100_3_alg».proof.Proof.LibBcastInDim
import Idealize.ShloMosaic.Lib.ValueLayout

noncomputable section

namespace Cert.ReferenceIdeal.RefValue

open Cert.ReferenceIdeal Cert.ReferenceIdeal.Facts₀ Cert.ReferenceIdeal.Facts Idealize.ShloMosaic Idealize.ShloMosaic.ValueIdx Cert.LibMatmul Cert.LibBcastInDim Cert.Gcn

/-- The host's `dot_general` with plain dimension numbers is the matrix product. -/
theorem hostDot_eq {A K B : ℕ} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (x : FVec Ideal ⟨2, ![A, K]⟩ .f32) (w : FVec Ideal ⟨2, ![K, B]⟩ .f32) :
    Host.dotGeneral d none x w = MM x w :=
  dotGeneral_eq d hlb hln hlc hrb hrn hrc none _ x w

/-- One layer's pre-activation on the host: the product with the adjacency matrix plus the bias laid out as a row and
    repeated down the rows. -/
theorem affine_eq {N G : ℕ} (d : DotDims ⟨2, ![N, N]⟩ ⟨2, ![N, G]⟩ ⟨2, ![N, G]⟩)
    (hlb : d.lhsBatch = []) (hln : d.lhsNonContracting = [0]) (hlc : d.lhsContracting = [1])
    (hrb : d.rhsBatch = []) (hrn : d.rhsNonContracting = [1]) (hrc : d.rhsContracting = [0])
    (adj : FVec Ideal ⟨2, ![N, N]⟩ .f32) (h : FVec Ideal ⟨2, ![N, G]⟩ .f32) (b : FVec Ideal ⟨1, ![G]⟩ .f32)
    (h1 : (⟨1, ![G]⟩ : Shape).BroadcastsInDim ⟨2, ![1, G]⟩ (![1] : Fin 1 → Fin 2))
    (h2 : (⟨2, ![1, G]⟩ : Shape).BroadcastsInDim ⟨2, ![N, G]⟩ (![0, 1] : Fin 2 → Fin 2)) :
    addf (Host.dotGeneral d none adj h) (broadcastInDim ⟨2, ![N, G]⟩ ![0, 1] h2 (broadcastInDim ⟨2, ![1, G]⟩ ![1] h1 b))
      = affine adj h b := by
  rw [hostDot_eq d hlb hln hlc hrb hrn hrc, bid_row]
  rfl

/-- A layer and the next weight product on the host. -/
theorem layer_eq {N G G' : ℕ} (d : DotDims ⟨2, ![N, N]⟩ ⟨2, ![N, G]⟩ ⟨2, ![N, G]⟩)
    (hlb : d.lhsBatch = []) (hln : d.lhsNonContracting = [0]) (hlc : d.lhsContracting = [1])
    (hrb : d.rhsBatch = []) (hrn : d.rhsNonContracting = [1]) (hrc : d.rhsContracting = [0])
    (d' : DotDims ⟨2, ![N, G]⟩ ⟨2, ![G, G']⟩ ⟨2, ![N, G']⟩)
    (hlb' : d'.lhsBatch = []) (hln' : d'.lhsNonContracting = [0]) (hlc' : d'.lhsContracting = [1])
    (hrb' : d'.rhsBatch = []) (hrn' : d'.rhsNonContracting = [1]) (hrc' : d'.rhsContracting = [0])
    (adj : FVec Ideal ⟨2, ![N, N]⟩ .f32) (h : FVec Ideal ⟨2, ![N, G]⟩ .f32) (b : FVec Ideal ⟨1, ![G]⟩ .f32)
    (wn : FVec Ideal ⟨2, ![G, G']⟩ .f32)
    (h1 : (⟨1, ![G]⟩ : Shape).BroadcastsInDim ⟨2, ![1, G]⟩ (![1] : Fin 1 → Fin 2))
    (h2 : (⟨2, ![1, G]⟩ : Shape).BroadcastsInDim ⟨2, ![N, G]⟩ (![0, 1] : Fin 2 → Fin 2))
    (h0 : (⟨0, ![]⟩ : Shape).BroadcastsInDim ⟨2, ![N, G]⟩ (![] : Fin 0 → Fin 2)) :
    Host.dotGeneral d' none
        (maximumf (addf (Host.dotGeneral d none adj h) (broadcastInDim ⟨2, ![N, G]⟩ ![0, 1] h2 (broadcastInDim ⟨2, ![1, G]⟩ ![1] h1 b)))
          (broadcastInDim ⟨2, ![N, G]⟩ ![] h0 (constant (F := Ideal) ⟨0, ![]⟩ .f32 0x00000000#32))) wn
      = layer adj h b wn := by
  rw [hostDot_eq d' hlb' hln' hlc' hrb' hrn' hrc', affine_eq d hlb hln hlc hrb hrn hrc, bid_scalar]
  rfl

/-- The reference's composed term is the Gram matrix of the three-layer embeddings. -/
theorem result_eq (x0 : FVec Ideal S10000x128 .f32) (x1 : FVec Ideal S10000x10000 .f32) (x2 : FVec Ideal S128x128 .f32)
    (x3 : FVec Ideal S128 .f32) (x4 : FVec Ideal S128x128 .f32) (x5 : FVec Ideal S128 .f32)
    (x6 : FVec Ideal S128x16 .f32) (x7 : FVec Ideal S16 .f32) :
    Host.dotGeneral dot_S10000x16_S16x10000_S10000x10000_1_0_0_1_n_n none (addf (Host.dotGeneral dot_S10000x10000_S10000x16_S10000x16_1_0_0_1_n_n none x1 (Host.dotGeneral dot_S10000x128_S128x16_S10000x16_1_0_0_1_n_n none (maximumf (addf (Host.dotGeneral dot_S10000x10000_S10000x128_S10000x128_1_0_0_1_n_n none x1 (Host.dotGeneral dot_S10000x128_S128x128_S10000x128_1_0_0_1_n_n none (maximumf (addf (Host.dotGeneral dot_S10000x10000_S10000x128_S10000x128_1_0_0_1_n_n none x1 (Host.dotGeneral dot_S10000x128_S128x128_S10000x128_1_0_0_1_n_n none x0 x2)) (broadcastInDim S10000x128 ![0, 1] bcast_S1x128_S10000x128_0_1 (broadcastInDim S1x128 ![1] bcast_S128_S1x128_1 x3))) (broadcastInDim S10000x128 ![] bcast_S_S10000x128 (constant S_ .f32 0x00000000#32))) x4)) (broadcastInDim S10000x128 ![0, 1] bcast_S1x128_S10000x128_0_1 (broadcastInDim S1x128 ![1] bcast_S128_S1x128_1 x5))) (broadcastInDim S10000x128 ![] bcast_S_S10000x128 (constant S_ .f32 0x00000000#32))) x6)) (broadcastInDim S10000x16 ![0, 1] bcast_S1x16_S10000x16_0_1 (broadcastInDim S1x16 ![1] bcast_S16_S1x16_1 x7))) (transpose S16x10000 [1, 0] (addf (Host.dotGeneral dot_S10000x10000_S10000x16_S10000x16_1_0_0_1_n_n none x1 (Host.dotGeneral dot_S10000x128_S128x16_S10000x16_1_0_0_1_n_n none (maximumf (addf (Host.dotGeneral dot_S10000x10000_S10000x128_S10000x128_1_0_0_1_n_n none x1 (Host.dotGeneral dot_S10000x128_S128x128_S10000x128_1_0_0_1_n_n none (maximumf (addf (Host.dotGeneral dot_S10000x10000_S10000x128_S10000x128_1_0_0_1_n_n none x1 (Host.dotGeneral dot_S10000x128_S128x128_S10000x128_1_0_0_1_n_n none x0 x2)) (broadcastInDim S10000x128 ![0, 1] bcast_S1x128_S10000x128_0_1 (broadcastInDim S1x128 ![1] bcast_S128_S1x128_1 x3))) (broadcastInDim S10000x128 ![] bcast_S_S10000x128 (constant S_ .f32 0x00000000#32))) x4)) (broadcastInDim S10000x128 ![0, 1] bcast_S1x128_S10000x128_0_1 (broadcastInDim S1x128 ![1] bcast_S128_S1x128_1 x5))) (broadcastInDim S10000x128 ![] bcast_S_S10000x128 (constant S_ .f32 0x00000000#32))) x6)) (broadcastInDim S10000x16 ![0, 1] bcast_S1x16_S10000x16_0_1 (broadcastInDim S1x16 ![1] bcast_S16_S1x16_1 x7))) transposes_S10000x16_S16x10000_1_0)
    = gram (embed x0 x1 x2 x3 x4 x5 x6 x7) := by
  rw [hostDot_eq dot_S10000x128_S128x128_S10000x128_1_0_0_1_n_n rfl rfl rfl rfl rfl rfl x0 x2]
  rw [layer_eq dot_S10000x10000_S10000x128_S10000x128_1_0_0_1_n_n rfl rfl rfl rfl rfl rfl
    dot_S10000x128_S128x128_S10000x128_1_0_0_1_n_n rfl rfl rfl rfl rfl rfl x1 (MM x0 x2) x3 x4]
  rw [layer_eq dot_S10000x10000_S10000x128_S10000x128_1_0_0_1_n_n rfl rfl rfl rfl rfl rfl
    dot_S10000x128_S128x16_S10000x16_1_0_0_1_n_n rfl rfl rfl rfl rfl rfl x1 _ x5 x6]
  rw [affine_eq dot_S10000x10000_S10000x16_S10000x16_1_0_0_1_n_n rfl rfl rfl rfl rfl rfl x1 _ x7]
  rw [transpose_eq_tr, hostDot_eq dot_S10000x16_S16x10000_S10000x10000_1_0_0_1_n_n rfl rfl rfl rfl rfl rfl]
  rfl

end Cert.ReferenceIdeal.RefValue

end
-- ==== Proof.lean ====
/-
  A three-layer dense graph convolution followed by the Gram matrix of the embeddings, as five pipelined
  kernels against the plain jnp formula.  On the extended reals both programs are the same function of the
  arguments: with h1 = feat · W1, each layer is relu (adj · h + b) · W_next, the embeddings are
  z = adj · h3 + b3, and the result is z · zᵀ.  The kernels compute the products block of rows by block of rows,
  and a block of rows of such a layer depends on the same rows of the adjacency matrix only; the changes of
  float format on the way are the identity on the extended reals, and the kernel's copy of the adjacency
  matrix is the adjacency matrix.  No law beyond the definition of the matrix product is used, so the
  finiteness of the inputs is never opened.  The idealized kernel program is the kernel program's own text read
  at the ideal values (no operation was rewritten), so the idealization claim is trivial; the three frames are
  the programs' runs with the results dropped.
-/
import proofs.«137731_g22393959481936_cont_8to1_100_3_alg».proof.Defs
import proofs.«137731_g22393959481936_cont_8to1_100_3_alg».proof.Proof.Gen.Kernel
import proofs.«137731_g22393959481936_cont_8to1_100_3_alg».proof.Proof.Gen.Kernel.Frame
import proofs.«137731_g22393959481936_cont_8to1_100_3_alg».proof.Proof.Gen.KernelIdeal
import proofs.«137731_g22393959481936_cont_8to1_100_3_alg».proof.Proof.Gen.KernelIdeal.Frame
import proofs.«137731_g22393959481936_cont_8to1_100_3_alg».proof.Proof.Gen.ReferenceIdeal
import proofs.«137731_g22393959481936_cont_8to1_100_3_alg».proof.Proof.Gen.ReferenceIdeal.Run
import proofs.«137731_g22393959481936_cont_8to1_100_3_alg».proof.Proof.Gen.Pre_finite_inputs
import proofs.«137731_g22393959481936_cont_8to1_100_3_alg».proof.Proof.KRun
import proofs.«137731_g22393959481936_cont_8to1_100_3_alg».proof.Proof.KChain
import proofs.«137731_g22393959481936_cont_8to1_100_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized program: nothing to state. -/
theorem preserves : Cert.preserves_Kernel_KernelIdeal := trivial

/-- Both programs end with z · zᵀ for the three-layer embeddings z of the arguments. -/
theorem algebraic : Cert.algebraic_KernelIdeal_ReferenceIdeal := by
  intro m ρ m' ρ' _ hagree
  refine ⟨fun c => Cert.Gcn.gram (Cert.Gcn.embed (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), ?_, ?_⟩
  · exact (θ_run Cert.KernelIdeal.defs _ _).mono
      (fun r h c => ⟨(h c).1.trans (Cert.KernelIdeal.KValue.W9_v8 m ρ c), (h c).2⟩)
      (Cert.KernelIdeal.KRun.run_named m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [a0, a1, a2, a3, a4, a5, a6, a7]
    exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
